-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x64 .f32 .bf16
  ∧ IdealRules.truncf_extf.Statement Cert.KernelIdeal.S1024x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S64x1 : Shape := ⟨2, ![64, 1]⟩
abbrev S64 : Shape := ⟨1, ![64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x4096x64 .f32) (main_arg1 : FVec F S4x4096x64 .f32) (main_arg2 : FVec F S64x1 .f32) (main_arg3 : FVec F S64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x4096x64 : Shape := ⟨3, ![4, 4096, 64]⟩
abbrev S64x1 : Shape := ⟨2, ![64, 1]⟩
abbrev S64 : Shape := ⟨1, ![64]⟩
abbrev S_ : Shape := ⟨0, ![]⟩
abbrev S1x64 : Shape := ⟨2, ![1, 64]⟩
abbrev S4x4096x4096 : Shape := ⟨3, ![4, 4096, 4096]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S64x1, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x64, .f32⟩
  | .local _ .vmem, ⟨5, _⟩ => ⟨S1x64, .f32⟩
  | .local _ .vmem, ⟨6, _⟩ => ⟨S1x1024x1024, .f32⟩
  | .local _ .vmem, ⟨7, _⟩ => ⟨S1x1024x1024, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S_S64 : S_.BroadcastsInDim S64 (![] : Fin 0 → Fin S64.rank)
  shapeCasts_S64_S1x64 : S64.ShapeCasts S1x64
  shapeCasts_S64x1_S1x64 : S64x1.ShapeCasts S1x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S64x1 : Shape := ⟨2, ![64, 1]⟩
abbrev S64 : Shape := ⟨1, ![64]⟩
abbrev S_ : Shape := ⟨0, ![]⟩
abbrev S1x1x64 : Shape := ⟨3, ![1, 1, 64]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096 : Shape := ⟨2, ![4, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S64x1, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S4x4096x1, .f32⟩
  | .hbm, ⟨15, _⟩ => ⟨S4x4096x1, .f32⟩
  | .hbm, ⟨16, _⟩ => ⟨S4x1x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x64, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x64, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  transposes_S4x4096x1_S4x1x4096_0_2_1 : S4x4096x1.Transposes [0, 2, 1] S4x1x4096
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x4096 : S_.BroadcastsInDim S4x4096x4096 (![] : Fin 0 → Fin S4x4096x4096.rank)
  dot_S4x4096x64_S64x1_S4x4096x1_2_0_01_1_n_n_wf : DotDims.WF S4x4096x64 S64x1 S4x4096x1 [2] [0] [0, 1] [1] [] []
  dot_S4x4096x64_S4x4096x64_S4x4096x4096_2_2_1_1_0_0_wf : DotDims.WF S4x4096x64 S4x4096x64 S4x4096x4096 [2] [2] [1] [1] [0] [0]

variable [Facts₀]

def dot_S4x4096x64_S64x1_S4x4096x1_2_0_01_1_n_n : DotDims S4x4096x64 S64x1 S4x4096x1 where
  lhsContracting := [2]
  rhsContracting := [0]
  lhsNonContracting := [0, 1]
  rhsNonContracting := [1]
  lhsBatch := []
  rhsBatch := []
  wf := dot_S4x4096x64_S64x1_S4x4096x1_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.Spec.lean ====
/-
  The mathematics of one output entry, with no program in sight.

  For a row `xr` of the first argument, a row `yr` of the second, the per-axis scales `s` and the direction `w`
  (all indexed by the 64 feature axes), the entry is a cosine factor times a Gaussian factor.  The Gaussian factor is
  `exp (-(1/2) * max (|xr∘s|² + |yr∘s|² - 2 * (xr∘s)·(yr∘s)) 0)` in both programs.  The cosine factor is where they
  differ: one program takes the cosine of the DIFFERENCE of the two projections `xr·w - yr·w`, the other expands it by
  the angle-subtraction formula `cos a * cos b + sin a * sin b`.  On the extended reals the two agree exactly when the
  projections are real numbers (at an infinite projection the cosine is a junk value and the expansion is not valid),
  and a projection is real as soon as the rows and the direction are finite: a finite sum of products of reals.
-/
import Idealize.ShloMosaic.PureOps.Ideal
import Idealize.ShloMosaic.Lib.ValueIdx

noncomputable section

namespace Cert.Spec

open Idealize.ShloMosaic Idealize.ShloMosaic.ValueIdx

/-! ## One entry from its two rows -/

/-- The projection of a row onto a direction: the sum over the feature axes of the products. -/
def dotRow (a w : Fin 64 → EReal) : EReal := ∑ d : Fin 64, a d * w d

/-- The Gaussian factor: `exp (-(1/2) * max (|xr∘s|² + |yr∘s|² - 2 * (xr∘s)·(yr∘s)) 0)`, the literals kept as their
    binary words (the same words in both programs, so they are never evaluated). -/
def damp (xr yr s : Fin 64 → EReal) : EReal :=
  Ideal.exp (Ideal.ofBits .f32 0xBF000000#32 *
    max ((∑ d : Fin 64, xr d * s d * (xr d * s d)) + (∑ d : Fin 64, yr d * s d * (yr d * s d))
          - Ideal.ofBits .f32 0x40000000#32 * ∑ d : Fin 64, xr d * s d * (yr d * s d))
        (Ideal.ofBits .f32 0x00000000#32))

/-- The entry with the cosine factor expanded: `cos a * cos b + sin a * sin b` of the two projections. -/
def prodForm (xr yr s w : Fin 64 → EReal) : EReal :=
  (Ideal.cos (dotRow xr w) * Ideal.cos (dotRow yr w) + Ideal.sin (dotRow xr w) * Ideal.sin (dotRow yr w)) * damp xr yr s

/-- The entry with the cosine of the difference of the two projections. -/
def diffForm (xr yr s w : Fin 64 → EReal) : EReal :=
  Ideal.cos (dotRow xr w - dotRow yr w) * damp xr yr s

/-! ## The angle-subtraction formula on real projections -/

/-- A finite sum of real numbers, each read as an extended real, is the real sum read as an extended real. -/
theorem coe_sum {ι : Type} (t : Finset ι) (f : ι → ℝ) :
    (∑ i ∈ t, ((f i : ℝ) : EReal)) = ((∑ i ∈ t, f i : ℝ) : EReal) := by
  classical
  refine Finset.induction_on t (by simp) fun a t ha ih => ?_
  rw [Finset.sum_insert ha, Finset.sum_insert ha, ih, EReal.coe_add]

/-- The projection of a finite row onto a finite direction is a real number. -/
theorem dotRow_real (a w : Fin 64 → EReal) (ha : ∀ d, ∃ r : ℝ, a d = (r : EReal)) (hw : ∀ d, ∃ r : ℝ, w d = (r : EReal)) :
    ∃ r : ℝ, dotRow a w = (r : EReal) := by
  choose ar har using ha
  choose wr hwr using hw
  refine ⟨∑ d, ar d * wr d, ?_⟩
  unfold dotRow
  rw [← coe_sum]
  exact Finset.sum_congr rfl fun d _ => by rw [har, hwr, EReal.coe_mul]

/-- `cos (a - b) = cos a * cos b + sin a * sin b` for real `a`, `b` read as extended reals. -/
theorem cos_sub_real (a b : ℝ) :
    Ideal.cos ((a : EReal) - (b : EReal)) = Ideal.cos (a : EReal) * Ideal.cos (b : EReal) + Ideal.sin (a : EReal) * Ideal.sin (b : EReal) := by
  rw [← EReal.coe_sub, Ideal.cos_coe, Ideal.cos_coe, Ideal.cos_coe, Ideal.sin_coe, Ideal.sin_coe, ← EReal.coe_mul, ← EReal.coe_mul,
    ← EReal.coe_add, Real.cos_sub]

/-- For finite rows and a finite direction the expanded entry is the entry with the cosine of the difference. -/
theorem prodForm_eq_diffForm (xr yr s w : Fin 64 → EReal) (hx : ∀ d, ∃ r : ℝ, xr d = (r : EReal))
    (hy : ∀ d, ∃ r : ℝ, yr d = (r : EReal)) (hw : ∀ d, ∃ r : ℝ, w d = (r : EReal)) :
    prodForm xr yr s w = diffForm xr yr s w := by
  obtain ⟨a, ha⟩ := dotRow_real xr w hx hw
  obtain ⟨b, hb⟩ := dotRow_real yr w hy hw
  unfold prodForm diffForm
  rw [ha, hb, cos_sub_real]

/-! ## The whole arrays -/

/-- Row `n` of batch `b` of a `[4, 4096, 64]` array. -/
def row (a : (⟨3, ![4, 4096, 64]⟩ : Shape).Idx → EReal) (b : Fin 4) (n : Fin 4096) : Fin 64 → EReal := fun d => a (ix3 b n d)

/-- The direction: the one column of the `[64, 1]` argument. -/
def dir (mu : (⟨2, ![64, 1]⟩ : Shape).Idx → EReal) : Fin 64 → EReal := fun d => mu (ix2 d (0 : Fin 1))

/-- The per-axis scale `exp ((1/2) * l d)`, the literal kept as its binary word. -/
def scale (l : (⟨1, ![64]⟩ : Shape).Idx → EReal) : Fin 64 → EReal := fun d => Ideal.exp (Ideal.ofBits .f32 0x3F000000#32 * l (ix1 d))

/-- The `[4, 4096, 4096]` result with the expanded cosine factor: entry `(b, n, m)` from row `n` of `x` and row `m` of `y` in batch `b`. -/
def prodVal (x y : (⟨3, ![4, 4096, 64]⟩ : Shape).Idx → EReal) (mu : (⟨2, ![64, 1]⟩ : Shape).Idx → EReal)
    (l : (⟨1, ![64]⟩ : Shape).Idx → EReal) : (⟨3, ![4, 4096, 4096]⟩ : Shape).Idx → EReal :=
  fun i => prodForm (row x (i 0) (i 1)) (row y (i 0) (i 2)) (scale l) (dir mu)

/-- The same result with the cosine of the difference. -/
def diffVal (x y : (⟨3, ![4, 4096, 64]⟩ : Shape).Idx → EReal) (mu : (⟨2, ![64, 1]⟩ : Shape).Idx → EReal)
    (l : (⟨1, ![64]⟩ : Shape).Idx → EReal) : (⟨3, ![4, 4096, 4096]⟩ : Shape).Idx → EReal :=
  fun i => diffForm (row x (i 0) (i 1)) (row y (i 0) (i 2)) (scale l) (dir mu)

/-- With `x`, `y` and `mu` finite the two results are one array. -/
theorem prodVal_eq_diffVal (x y : (⟨3, ![4, 4096, 64]⟩ : Shape).Idx → EReal) (mu : (⟨2, ![64, 1]⟩ : Shape).Idx → EReal)
    (l : (⟨1, ![64]⟩ : Shape).Idx → EReal) (hx : ∀ i, ∃ r : ℝ, x i = (r : EReal)) (hy : ∀ i, ∃ r : ℝ, y i = (r : EReal))
    (hmu : ∀ i, ∃ r : ℝ, mu i = (r : EReal)) : prodVal x y mu l = diffVal x y mu l :=
  funext fun i => prodForm_eq_diffForm _ _ _ _ (fun d => hx _) (fun d => hy _) (fun d => hmu _)

end Cert.Spec

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.Body.lean ====
/-
  What the kernel's body stores at one entry of its output block, as a formula of the rows it loaded.

  A grid point loads a block of 1024 rows of `x`, a block of 1024 rows of `y`, the row of scales and the row of the
  direction, and stores one `[1, 1024, 1024]` block.  Entry `(p, q)` of that block depends on row `p` of the `x` block
  and row `q` of the `y` block only: the two projections onto the direction (a lane sum each), their cosines and sines
  combined as `cos a * cos b + sin a * sin b`, the two squared norms of the scaled rows (a lane sum each), and the
  inner product of the scaled rows (one entry of the matrix product, a sum over the 64 features; the rounding to a
  narrower float format in front of the product is the identity on exact values).  This file reads each of these
  operations at an index — a cast keeps the row-major position, a broadcast re-reads its one row or one column, a
  transpose swaps the two coordinates, a lane sum and a matrix product are finite sums — and assembles the entry.
-/
import proofs.«145296_j85959475462553_2_alg».proof.Proof.Gen.KernelIdeal.Frame
import proofs.«145296_j85959475462553_2_alg».proof.Proof.Spec
import proofs.«145296_j85959475462553_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LayoutKeepdims

/-! ## The loaded blocks as matrices -/

/-- The `[1, 1024, 64]` block with its unit axis cast away: entry `(p, d)` is the block's `(0, p, d)`. -/
theorem rows_apply (v : Vec Ideal S1x1024x64 .f32) (p : Fin 1024) (d : Fin 64) :
    shapeCast S1024x64 v shapeCasts_S1x1024x64_S1024x64 (ix2 p d) = v (ix3 (0 : Fin 1) p d) :=
  shapeCast_1ab_ab_apply v _ p d

/-- A `[1, 64]` row broadcast over the 1024 rows: entry `(p, d)` is the row's `(0, d)`. -/
theorem rowBcast_apply (r : FVec Ideal S1x64 .f32) (p : Fin 1024) (d : Fin 64) :
    broadcastTo S1024x64 (shapeCast S1x64 r shapeCasts_S1x64_S1x64) broadcasts_S1x64_S1024x64 (ix2 p d) = r (ix2 (0 : Fin 1) d) := by
  rw [shapeCast_self]
  exact broadcastTo_1b_ab_apply r _ p d

/-- Each row of a block times the broadcast row, entry by entry. -/
def timesRow (v : Vec Ideal S1x1024x64 .f32) (r : Vec Ideal S1x64 .f32) : FVec Ideal S1024x64 .f32 :=
  mulf (shapeCast S1024x64 v shapeCasts_S1x1024x64_S1024x64)
    (broadcastTo S1024x64 (shapeCast S1x64 r shapeCasts_S1x64_S1x64) broadcasts_S1x64_S1024x64)

theorem timesRow_apply (v : Vec Ideal S1x1024x64 .f32) (r : Vec Ideal S1x64 .f32) (p : Fin 1024) (d : Fin 64) :
    timesRow v r (ix2 p d) = v (ix3 (0 : Fin 1) p d) * r (ix2 (0 : Fin 1) d) := by
  show shapeCast S1024x64 v shapeCasts_S1x1024x64_S1024x64 (ix2 p d)
    * broadcastTo S1024x64 (shapeCast S1x64 r shapeCasts_S1x64_S1x64) broadcasts_S1x64_S1024x64 (ix2 p d) = _
  rw [rows_apply, rowBcast_apply]

/-! ## A lane sum kept as a column -/

/-- The sum along the 64 lanes of a `[1024, 64]` matrix, kept as a `[1024, 1]` column. -/
def laneSum (a : FVec Ideal S1024x64 .f32) : FVec Ideal S1024x1 .f32 :=
  shapeCast S1024x1 (multiReduction .add [1] S1024 a 0x00000000#32 reduces_S1024x64_S1024 (.inl rfl) rfl) shapeCasts_S1024_S1024x1

/-- Entry `(p, u)` of the kept column is the sum of row `p`. -/
theorem laneSum_apply (a : FVec Ideal S1024x64 .f32) (p : Fin 1024) (u : Fin 1) :
    laneSum a (ix2 p u) = ∑ d : Fin 64, a (ix2 p d) := by
  refine (shapeCast_a_a1_apply _ _ p u).trans ?_
  refine (Ideal.multiReduction_add_single a 0x00000000#32 reduces_S1024x64_S1024 (.inl rfl) rfl (ix1 p)).trans ?_
  refine Finset.sum_congr rfl fun d _ => ?_
  exact congrArg a (funext fun ax => Fin.ext (by match ax with | ⟨0, _⟩ => rfl | ⟨1, _⟩ => rfl))

/-- The squared norm of each scaled row, kept as a column: the lane sum of the entrywise square. -/
theorem sqNorm_x_apply (v : Vec Ideal S1x1024x64 .f32) (r : Vec Ideal S1x64 .f32) (p : Fin 1024) (u : Fin 1) :
    k0_pay10 v r (ix2 p u) = ∑ d : Fin 64, v (ix3 (0 : Fin 1) p d) * r (ix2 (0 : Fin 1) d) * (v (ix3 (0 : Fin 1) p d) * r (ix2 (0 : Fin 1) d)) := by
  show laneSum (mulf (timesRow v r) (timesRow v r)) (ix2 p u) = _
  rw [laneSum_apply]
  refine Finset.sum_congr rfl fun d _ => ?_
  show timesRow v r (ix2 p d) * timesRow v r (ix2 p d) = _
  rw [timesRow_apply]

theorem sqNorm_y_apply (v : Vec Ideal S1x1024x64 .f32) (r : Vec Ideal S1x64 .f32) (p : Fin 1024) (u : Fin 1) :
    k0_pay11 v r (ix2 p u) = ∑ d : Fin 64, v (ix3 (0 : Fin 1) p d) * r (ix2 (0 : Fin 1) d) * (v (ix3 (0 : Fin 1) p d) * r (ix2 (0 : Fin 1) d)) := by
  show laneSum (mulf (timesRow v r) (timesRow v r)) (ix2 p u) = _
  rw [laneSum_apply]
  refine Finset.sum_congr rfl fun d _ => ?_
  show timesRow v r (ix2 p d) * timesRow v r (ix2 p d) = _
  rw [timesRow_apply]

/-- The scaled rows as the matrix product receives them: narrowing the float format is the identity on exact values. -/
theorem narrowed_x_apply (v : Vec Ideal S1x1024x64 .f32) (r : Vec Ideal S1x64 .f32) (p : Fin 1024) (d : Fin 64) :
    k0_pay8 v r (ix2 p d) = v (ix3 (0 : Fin 1) p d) * r (ix2 (0 : Fin 1) d) := by
  show timesRow v r (ix2 p d) = _
  exact timesRow_apply v r p d

theorem narrowed_y_apply (v : Vec Ideal S1x1024x64 .f32) (r : Vec Ideal S1x64 .f32) (p : Fin 1024) (d : Fin 64) :
    k0_pay9 v r (ix2 p d) = v (ix3 (0 : Fin 1) p d) * r (ix2 (0 : Fin 1) d) := by
  show timesRow v r (ix2 p d) = _
  exact timesRow_apply v r p d

/-! ## A column against a row of columns -/

/-- A `[1024, 1]` column broadcast along its rows: entry `(p, q)` is the column's entry of row `p`. -/
theorem colBcast_apply (v : FVec Ideal S1024x1 .f32) (p q : Fin 1024) :
    broadcastTo S1024x1024 v broadcasts_S1024x1_S1024x1024 (ix2 p q) = v (ix2 p (0 : Fin 1)) :=
  broadcastTo_a1_ab_apply v _ p q

/-- A `[1024, 1]` column transposed to a row and broadcast down the rows: entry `(p, q)` is the column's entry of row `q`. -/
theorem rowOfCol_apply (v : FVec Ideal S1024x1 .f32) (p q : Fin 1024) :
    broadcastTo S1024x1024 (transpose S1x1024 [1, 0] v transposes_S1024x1_p1_0_S1x1024) broadcasts_S1x1024_S1024x1024 (ix2 p q)
      = v (ix2 q (0 : Fin 1)) := by
  rw [broadcastTo_1b_ab_apply, transpose_ix2_apply]

/-! ## The cosine factor, expanded -/

/-- Entry `(p, q)` of the expanded cosine factor: `cos a * cos b + sin a * sin b` of the projections of row `p` of the
    first block and row `q` of the second onto the direction row. -/
theorem cosCombo_apply (v0 v2 : Vec Ideal S1x1024x64 .f32) (v6 : Vec Ideal S1x64 .f32) (p q : Fin 1024) :
    k0_pay5 v0 v2 v6 (ix2 p q)
      = Ideal.cos (Cert.Spec.dotRow (fun d => v0 (ix3 (0 : Fin 1) p d)) (fun d => v6 (ix2 (0 : Fin 1) d)))
          * Ideal.cos (Cert.Spec.dotRow (fun d => v2 (ix3 (0 : Fin 1) q d)) (fun d => v6 (ix2 (0 : Fin 1) d)))
        + Ideal.sin (Cert.Spec.dotRow (fun d => v0 (ix3 (0 : Fin 1) p d)) (fun d => v6 (ix2 (0 : Fin 1) d)))
          * Ideal.sin (Cert.Spec.dotRow (fun d => v2 (ix3 (0 : Fin 1) q d)) (fun d => v6 (ix2 (0 : Fin 1) d))) := by
  have hx : laneSum (timesRow v0 v6) (ix2 p (0 : Fin 1))
      = Cert.Spec.dotRow (fun d => v0 (ix3 (0 : Fin 1) p d)) (fun d => v6 (ix2 (0 : Fin 1) d)) := by
    rw [laneSum_apply]; exact Finset.sum_congr rfl fun d _ => timesRow_apply v0 v6 p d
  have hy : laneSum (timesRow v2 v6) (ix2 q (0 : Fin 1))
      = Cert.Spec.dotRow (fun d => v2 (ix3 (0 : Fin 1) q d)) (fun d => v6 (ix2 (0 : Fin 1) d)) := by
    rw [laneSum_apply]; exact Finset.sum_congr rfl fun d _ => timesRow_apply v2 v6 q d
  show broadcastTo S1024x1024 (cos (laneSum (timesRow v0 v6))) broadcasts_S1024x1_S1024x1024 (ix2 p q)
        * broadcastTo S1024x1024 (transpose S1x1024 [1, 0] (cos (laneSum (timesRow v2 v6))) transposes_S1024x1_p1_0_S1x1024)
            broadcasts_S1x1024_S1024x1024 (ix2 p q)
      + broadcastTo S1024x1024 (sin (laneSum (timesRow v0 v6))) broadcasts_S1024x1_S1024x1024 (ix2 p q)
        * broadcastTo S1024x1024 (transpose S1x1024 [1, 0] (sin (laneSum (timesRow v2 v6))) transposes_S1024x1_p1_0_S1x1024)
            broadcasts_S1x1024_S1024x1024 (ix2 p q) = _
  rw [colBcast_apply, rowOfCol_apply, colBcast_apply, rowOfCol_apply]
  show Ideal.cos (laneSum (timesRow v0 v6) (ix2 p (0 : Fin 1))) * Ideal.cos (laneSum (timesRow v2 v6) (ix2 q (0 : Fin 1)))
      + Ideal.sin (laneSum (timesRow v0 v6) (ix2 p (0 : Fin 1))) * Ideal.sin (laneSum (timesRow v2 v6) (ix2 q (0 : Fin 1))) = _
  rw [hx, hy]

/-! ## The matrix product of the scaled rows -/

theorem lhs_row (i : S1024x1024.Idx) (k : dot_S1024x64_S64x1024_S1024x1024_1_0_0_1_n_n.contr.Idx) :
    (dot_S1024x64_S64x1024_S1024x1024_1_0_0_1_n_n.lhsIdx i k 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl

theorem rhs_col (i : S1024x1024.Idx) (k : dot_S1024x64_S64x1024_S1024x1024_1_0_0_1_n_n.contr.Idx) :
    (dot_S1024x64_S64x1024_S1024x1024_1_0_0_1_n_n.rhsIdx i k 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- Entry `(p, q)` of `a` times the transpose of `b`, into a zero accumulator: the inner product of row `p` of `a` with
    row `q` of `b`, a sum over the 64 features. -/
theorem matmulT_apply (a b : FVec Ideal S1024x64 .bf16) (p q : Fin 1024) :
    matmul dot_S1024x64_S64x1024_S1024x1024_1_0_0_1_n_n none a (transpose S64x1024 [1, 0] b transposes_S1024x64_p1_0_S64x1024)
        (constant S1024x1024 .f32 0x00000000#32) (ix2 p q)
      = ∑ k : Fin 64, a (ix2 p k) * b (ix2 q k) := by
  refine (Ideal.matmul_constant_zero_apply dot_S1024x64_S64x1024_S1024x1024_1_0_0_1_n_n none a _ (ix2 p q)).trans ?_
  rw [← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q)
      ((ValueIdx.contrEquiv1 dot_S1024x64_S64x1024_S1024x1024_1_0_0_1_n_n 64 rfl rfl).symm k) = ix2 p k :=
    funext fun ax => Fin.ext (by
      match ax with
      | ⟨0, _⟩ => exact lhs_row _ _
      | ⟨1, _⟩ => exact (dot_S1024x64_S64x1024_S1024x1024_1_0_0_1_n_n.lhsIdx_val_of_single rfl _ _).trans hk)
  have er : dot_S1024x64_S64x1024_S1024x1024_1_0_0_1_n_n.rhsIdx (ix2 p q)
      ((ValueIdx.contrEquiv1 dot_S1024x64_S64x1024_S1024x1024_1_0_0_1_n_n 64 rfl rfl).symm k) = ix2 k q :=
    funext fun ax => Fin.ext (by
      match ax with
      | ⟨0, _⟩ => exact (dot_S1024x64_S64x1024_S1024x1024_1_0_0_1_n_n.rhsIdx_val_of_single rfl _ _).trans hk
      | ⟨1, _⟩ => exact rhs_col _ _)
  rw [el, er, transpose_ix2_apply]

/-! ## The stored block -/

/-- Entry `(u, p, q)` of what the body stores, from the cosine factor, the two columns of squared norms and the two
    matrices of scaled rows: the cosine factor times `exp (-(1/2) * max (|a_p|² + |b_q|² - 2 * a_p·b_q) 0)`. -/
theorem store_apply (v28 : FVec Ideal S1024x1024 .f32) (v33 v34 : FVec Ideal S1024x64 .bf16) (v39 v42 : FVec Ideal S1024x1 .f32)
    (u : Fin 1) (p q : Fin 1024) :
    k0_pay1 v28 v33 v34 v39 v42 (ix3 u p q)
      = v28 (ix2 p q) * Ideal.exp (Ideal.ofBits .f32 0xBF000000#32 *
          max (v39 (ix2 p (0 : Fin 1)) + v42 (ix2 q (0 : Fin 1))
                - Ideal.ofBits .f32 0x40000000#32 * ∑ k : Fin 64, v33 (ix2 p k) * v34 (ix2 q k))
              (Ideal.ofBits .f32 0x00000000#32)) := by
  unfold k0_pay1
  dsimp only
  rw [shapeCast_ab_1ab_apply]
  show v28 (ix2 p q) * Ideal.exp (Ideal.ofBits .f32 0xBF000000#32 *
          max (broadcastTo S1024x1024 v39 broadcasts_S1024x1_S1024x1024 (ix2 p q)
                + broadcastTo S1024x1024 (transpose S1x1024 [1, 0] v42 transposes_S1024x1_p1_0_S1x1024) broadcasts_S1x1024_S1024x1024 (ix2 p q)
                - Ideal.ofBits .f32 0x40000000#32 *
                    matmul dot_S1024x64_S64x1024_S1024x1024_1_0_0_1_n_n none v33
                      (transpose S64x1024 [1, 0] v34 transposes_S1024x64_p1_0_S64x1024) (constant S1024x1024 .f32 0x00000000#32) (ix2 p q))
              (Ideal.ofBits .f32 0x00000000#32)) = _
  rw [colBcast_apply, rowOfCol_apply, matmulT_apply]

theorem hz3 : (![0, 0, 0] : Fin 3 → Nat) = fun _ => 0 := funext fun a => by fin_cases a <;> rfl
theorem hz2 : (![0, 0] : Fin 2 → Nat) = fun _ => 0 := funext fun a => by fin_cases a <;> rfl

/-- ENTRY `(u, p, q)` OF THE BLOCK THE BODY LEAVES, from the four loaded blocks: the specification's expanded entry of row
    `p` of the first block, row `q` of the second, the scale row and the direction row. -/
theorem out_apply (x0 x1 : Vec Ideal S1x1024x64 .f32) (x2 x3 : Vec Ideal S1x64 .f32) (u : Fin 1) (p q : Fin 1024) :
    out0_4 x0 x1 x2 x3 (ix3 u p q)
      = Cert.Spec.prodForm (fun d => x0 (ix3 (0 : Fin 1) p d)) (fun d => x1 (ix3 (0 : Fin 1) q d))
          (fun d => x2 (ix2 (0 : Fin 1) d)) (fun d => x3 (ix2 (0 : Fin 1) d)) := by
  unfold out0_4
  rw [View.canon_unit_zero hz3]
  simp only [View.ld_unit_zero (S := S1x1024x64) hz3, View.ld_unit_zero (S := S1x64) hz2]
  rw [store_apply, cosCombo_apply, sqNorm_x_apply, sqNorm_y_apply]
  simp only [narrowed_x_apply, narrowed_y_apply]
  rfl

end Cert.KernelIdeal.Body

end
-- ==== Proof.Whole.lean ====
/-
  From the blocks the grid points write back to the whole result array.

  The grid has 4 × 4 × 4 points; point `(b, i, j)` loads rows `1024 i … 1024 i + 1023` of batch `b` of `x`, rows
  `1024 j … 1024 j + 1023` of batch `b` of `y`, the whole scale row and the whole direction row, and writes back block
  `(b, i, j)` of the `[4, 4096, 4096]` result.  Entry `(p, q)` of what it writes depends on row `p` of its `x` block and
  row `q` of its `y` block, which are rows `1024 i + p` and `1024 j + q` of the arrays: exactly the rows the
  whole-array formula uses at the entry's position `(b, 1024 i + p, 1024 j + q)`.  So every point writes a block of ONE
  array, the blocks cover the result (the point covering `(b, n, m)` is `(b, n / 1024, m / 1024)`), and the result ends
  holding that array.  The scale row the points load is `exp ((1/2) * l)` laid out as one row, and the direction row is
  the one column of `mu` laid out as one row: the host operations in front of the region.
-/
import proofs.«145296_j85959475462553_2_alg».proof.Proof.Gen.KernelIdeal.Value
import proofs.«145296_j85959475462553_2_alg».proof.Proof.Body
import proofs.«145296_j85959475462553_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array as one function of the four argument arrays: the specification's array with the expanded cosine
    factor. -/
abbrev result (c : Dev nD) : Buf (Elt Ideal) ((c : Thread nD τ).loc main_v5) :=
  Cert.Spec.prodVal (m ((c : Thread nD τ).loc main_arg0)) (m ((c : Thread nD τ).loc main_arg1)) (m ((c : Thread nD τ).loc main_arg2)) (m ((c : Thread nD τ).loc main_arg3))

/-! ## The two rows the host prepares -/

/-- The scale row at `(0, d)`: `exp ((1/2) * l d)`. -/
theorem scaleRow_apply (c : Dev nD) (d : Fin 64) :
    (V m c main_v3 : S1x64.Idx → EReal) (ix2 (0 : Fin 1) d) = Cert.Spec.scale (m ((c : Thread nD τ).loc main_arg3)) d := by
  have e : (V m c main_v3 : S1x64.Idx → EReal)
      = shapeCast S1x64 (Host.exp (mulf (broadcastInDim S64 ![] bcast_S_S64 (constant (F := Ideal) S_ .f32 0x3F000000#32))
          (m ((c : Thread nD τ).loc main_arg3) : S64.Idx → EReal)) : S64.Idx → EReal) shapeCasts_S64_S1x64 := by
    dsimp only [V, hostOps0]; after_results; rfl
  rw [e, shapeCast_a_1a_apply]
  rfl

/-- The direction row at `(0, d)`: the column's entry `(d, 0)` (a cast keeps the row-major position). -/
theorem dirRow_apply (c : Dev nD) (d : Fin 64) :
    (V m c main_v4 : S1x64.Idx → EReal) (ix2 (0 : Fin 1) d) = Cert.Spec.dir (m ((c : Thread nD τ).loc main_arg2)) d := by
  have e : (V m c main_v4 : S1x64.Idx → EReal)
      = shapeCast S1x64 (m ((c : Thread nD τ).loc main_arg2) : S64x1.Idx → EReal) shapeCasts_S64x1_S1x64 := by
    dsimp only [V, hostOps0]; after_results; rfl
  rw [e]
  refine (shapeCast_apply _ _ (ix2 (0 : Fin 1) d) (ix2 d (0 : Fin 1)) ?_).trans rfl
  rw [Shape.rowMajor_val_two, Shape.rowMajor_val_two]
  show d.val * 1 + 0 = 0 * 64 + d.val
  omega

/-! ## The windows' index maps over the grid -/

/-- Decided over the 64 points: the `x` window moves with the output's batch and row-block, the `y` window with the
    output's batch and column-block, both at feature block 0; the two parameter rows stay at block (0, 0); the output's
    block indices are at most 3. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (2 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 3 ∧ win0_4.index t (2 : Fin 3) ≤ 3 :=
  (by decide +kernel : ∀ t : Fin grid0.N, _)

/-- Every block of the result is some point's. -/
theorem idx_onto : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-! ## The loaded blocks as rows of the arrays -/

/-- An entry of the `x` block at point `t` is the entry of `x` at block index × block size + the coordinate inside. -/
theorem iblk0_apply (c : Dev nD) (t : Fin cfg0.N) (y : S1x1024x64.Idx) (k : S4x4096x64.Idx)
    (h0 : (k 0).val = win0_0.index t (0 : Fin 3) * 1 + (y 0).val)
    (h1 : (k 1).val = win0_0.index t (1 : Fin 3) * 1024 + (y 1).val)
    (h2 : (k 2).val = win0_0.index t (2 : Fin 3) * 64 + (y 2).val) :
    (iblk m c 0 t : Vec Ideal S1x1024x64 .f32) y = (m ((c : Thread nD τ).loc main_arg0) : S4x4096x64.Idx → EReal) k := by
  unfold iblk
  rw [View.read_apply]
  show V m c main_arg0 _ = _
  rw [V_main_arg0]
  congr 1
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 64 + 1 * (y 2).val = (k 2).val; omega

/-- The same for the `y` block. -/
theorem iblk1_apply (c : Dev nD) (t : Fin cfg0.N) (y : S1x1024x64.Idx) (k : S4x4096x64.Idx)
    (h0 : (k 0).val = win0_1.index t (0 : Fin 3) * 1 + (y 0).val)
    (h1 : (k 1).val = win0_1.index t (1 : Fin 3) * 1024 + (y 1).val)
    (h2 : (k 2).val = win0_1.index t (2 : Fin 3) * 64 + (y 2).val) :
    (iblk m c 1 t : Vec Ideal S1x1024x64 .f32) y = (m ((c : Thread nD τ).loc main_arg1) : S4x4096x64.Idx → EReal) k := by
  unfold iblk
  rw [View.read_apply]
  show V m c main_arg1 _ = _
  rw [V_main_arg1]
  congr 1
  funext a
  apply Fin.ext
  match a with
  | ⟨0, _⟩ => show win0_1.index t (0 : Fin 3) * 1 + 1 * (y 0).val = (k 0).val; omega
  | ⟨1, _⟩ => show win0_1.index t (1 : Fin 3) * 1024 + 1 * (y 1).val = (k 1).val; omega
  | ⟨2, _⟩ => show win0_1.index t (2 : Fin 3) * 64 + 1 * (y 2).val = (k 2).val; omega

/-- The scale window's block is the whole scale row at every point. -/
theorem iblk2_apply (c : Dev nD) (t : Fin cfg0.N) (d : Fin 64) :
    (iblk m c 2 t : Vec Ideal S1x64 .f32) (ix2 (0 : Fin 1) d) = (V m c main_v3 : S1x64.Idx → EReal) (ix2 (0 : Fin 1) d) := by
  obtain ⟨-, -, -, -, -, -, e20, e21, -⟩ := idx_facts t
  unfold iblk
  rw [View.read_apply]
  show V m c main_v3 _ = _
  congr 1
  funext a
  apply Fin.ext
  match a with
  | ⟨0, _⟩ => show win0_2.index t (0 : Fin 2) * 1 + 1 * 0 = 0; omega
  | ⟨1, _⟩ => show win0_2.index t (1 : Fin 2) * 64 + 1 * d.val = d.val; omega

/-- The direction window's block is the whole direction row at every point. -/
theorem iblk3_apply (c : Dev nD) (t : Fin cfg0.N) (d : Fin 64) :
    (iblk m c 3 t : Vec Ideal S1x64 .f32) (ix2 (0 : Fin 1) d) = (V m c main_v4 : S1x64.Idx → EReal) (ix2 (0 : Fin 1) d) := by
  obtain ⟨-, -, -, -, -, -, -, -, e30, e31, -⟩ := idx_facts t
  unfold iblk
  rw [View.read_apply]
  show V m c main_v4 _ = _
  congr 1
  funext a
  apply Fin.ext
  match a with
  | ⟨0, _⟩ => show win0_3.index t (0 : Fin 2) * 1 + 1 * 0 = 0; omega
  | ⟨1, _⟩ => show win0_3.index t (1 : Fin 2) * 64 + 1 * d.val = d.val; omega

/-! ## What a point writes back -/

/-- Entry `(u, p, q)` of what the body leaves at point `t` is the result array at the entry's position in the array:
    the rows the body used are the rows the array formula uses there. -/
theorem block_entry (c : Dev nD) (t : Fin cfg0.N) (u : Fin 1) (p q : Fin 1024) :
    out0_4 (iblk m c 0 t) (iblk m c 1 t) (iblk m c 2 t) (iblk m c 3 t) (ix3 u p q)
      = result m c (((cfg0.win 4).blk t).view.emb (ix3 u p q)) := by
  obtain ⟨e00, e01, e02, e10, e11, e12, -⟩ := idx_facts t
  have hu : u.val = 0 := by omega
  have i0 : ((((cfg0.win 4).blk t).view.emb (ix3 u p q)) 0).val = win0_4.index t (0 : Fin 3) * 1 + 1 * u.val := rfl
  have i1 : ((((cfg0.win 4).blk t).view.emb (ix3 u p q)) 1).val = win0_4.index t (1 : Fin 3) * 1024 + 1 * p.val := rfl
  have i2 : ((((cfg0.win 4).blk t).view.emb (ix3 u p q)) 2).val = win0_4.index t (2 : Fin 3) * 1024 + 1 * q.val := rfl
  have hx : (fun d : Fin 64 => (iblk m c 0 t : Vec Ideal S1x1024x64 .f32) (ix3 (0 : Fin 1) p d))
      = Cert.Spec.row (m ((c : Thread nD τ).loc main_arg0)) ((((cfg0.win 4).blk t).view.emb (ix3 u p q)) 0) ((((cfg0.win 4).blk t).view.emb (ix3 u p q)) 1) :=
    funext fun d => iblk0_apply m c t (ix3 (0 : Fin 1) p d) _
      (by show ((((cfg0.win 4).blk t).view.emb (ix3 u p q)) 0).val = win0_0.index t (0 : Fin 3) * 1 + 0; omega)
      (by show ((((cfg0.win 4).blk t).view.emb (ix3 u p q)) 1).val = win0_0.index t (1 : Fin 3) * 1024 + p.val; omega)
      (by show d.val = win0_0.index t (2 : Fin 3) * 64 + d.val; omega)
  have hy : (fun d : Fin 64 => (iblk m c 1 t : Vec Ideal S1x1024x64 .f32) (ix3 (0 : Fin 1) q d))
      = Cert.Spec.row (m ((c : Thread nD τ).loc main_arg1)) ((((cfg0.win 4).blk t).view.emb (ix3 u p q)) 0) ((((cfg0.win 4).blk t).view.emb (ix3 u p q)) 2) :=
    funext fun d => iblk1_apply m c t (ix3 (0 : Fin 1) q d) _
      (by show ((((cfg0.win 4).blk t).view.emb (ix3 u p q)) 0).val = win0_1.index t (0 : Fin 3) * 1 + 0; omega)
      (by show ((((cfg0.win 4).blk t).view.emb (ix3 u p q)) 2).val = win0_1.index t (1 : Fin 3) * 1024 + q.val; omega)
      (by show d.val = win0_1.index t (2 : Fin 3) * 64 + d.val; omega)
  have hs : (fun d : Fin 64 => (iblk m c 2 t : Vec Ideal S1x64 .f32) (ix2 (0 : Fin 1) d)) = Cert.Spec.scale (m ((c : Thread nD τ).loc main_arg3)) :=
    funext fun d => (iblk2_apply m c t d).trans (scaleRow_apply m c d)
  have hw : (fun d : Fin 64 => (iblk m c 3 t : Vec Ideal S1x64 .f32) (ix2 (0 : Fin 1) d)) = Cert.Spec.dir (m ((c : Thread nD τ).loc main_arg2)) :=
    funext fun d => (iblk3_apply m c t d).trans (dirRow_apply m c d)
  refine (Cert.KernelIdeal.Body.out_apply (iblk m c 0 t) (iblk m c 1 t) (iblk m c 2 t) (iblk m c 3 t) u p q).trans ?_
  exact congr (congr (congr (congrArg Cert.Spec.prodForm hx) hy) hs) hw

/-- WHAT POINT `t` WRITES BACK is block `t` of the result array. -/
theorem flushed_eq (c : Dev nD) (t : Fin cfg0.N) :
    (dats m 0 c).flushed 4 t = ((cfg0.win 4).blk t).view.read (Elt Ideal) (result m c) := by
  rw [Cert.KernelIdeal.Value.flushed4]
  funext j
  obtain ⟨u, p, q, rfl⟩ : ∃ (u : Fin 1) (p q : Fin 1024), j = ix3 u p q := ⟨j 0, j 1, j 2, eq_ix3 j⟩
  exact block_entry m c t u p q

/-! ## The blocks cover the result -/

/-- An index of the result is in point `t`'s block iff each coordinate is in the block's range on its axis. -/
theorem mem_blk (t : Fin cfg0.N) (i : S4x4096x4096.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v5).slice (win0_4.rect t)).set ↔ _
  rw [View.set_slice_whole, Rect.mem_set_unit]
  exact Iff.rfl

/-- Every index of the result lies in the block of the point `(b, n / 1024, m / 1024)`, and every point writes back. -/
theorem cover (i : S4x4096x4096.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, by omega⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-! ## The array after the run, and the run -/

/-- THE RESULT ARRAY after the run is the specification's array of the four arguments. -/
theorem final (c : Dev nD) : (dats m 0 c).arrAt 4 cfg0.N = result m c :=
  (dats m 0 c).arrAt_eq_of_cover 4 (result m c) (fun t _ => flushed_eq m c t) cover

/-- The kernel's run, read: the result array at the specification's array, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.Ref.lean ====
/-
  The reference program's result, read one entry at a time, is the specification's array with the cosine of the
  difference of the two projections.

  The reference scales every row of `x` and of `y` by the per-axis scale `exp ((1/2) * l)`, projects the unscaled rows
  onto the one column of `mu` (a contraction over the 64 features), sums the squares of the scaled rows, contracts the
  scaled rows of `x` against those of `y` within a batch, and combines them entry by entry.  Every layout operation in
  between (a broadcast of a column or of a row of columns, a swap of the last two axes) only re-reads its operand at
  another index; the index arithmetic is by cases on the axis.
-/
import proofs.«145296_j85959475462553_2_alg».proof.Proof.Gen.ReferenceIdeal.Read
import proofs.«145296_j85959475462553_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 x1 : FVec Ideal S4x4096x64 .f32) (x2 : FVec Ideal S64x1 .f32) (x3 : FVec Ideal S64 .f32)

/-! ## The scaled arrays -/

/-- The scale broadcast over batches and rows: at `(b, n, d)` it is `exp ((1/2) * l d)`. -/
theorem scale_x_apply (b : Fin 4) (n : Fin 4096) (d : Fin 64) :
    val_main_v4 (F := Ideal) x3 (ix3 b n d) = Cert.Spec.scale x3 d := by
  rw [val_main_v4_apply, val_main_v3_apply, val_main_v2_apply, val_main_v1_apply, val_main_v0_apply, val_main_cst_apply]
  have e : idx_main_v3 (idx_main_v4 (ix3 b n d)) = ix1 d := funext fun a => Fin.ext (by match a with | ⟨0, _⟩ => rfl)
  rw [e]
  rfl

theorem scale_y_apply (b : Fin 4) (n : Fin 4096) (d : Fin 64) :
    val_main_v7 (F := Ideal) x3 (ix3 b n d) = Cert.Spec.scale x3 d := by
  rw [val_main_v7_apply, val_main_v6_apply, val_main_v2_apply, val_main_v1_apply, val_main_v0_apply, val_main_cst_apply]
  have e : idx_main_v6 (idx_main_v7 (ix3 b n d)) = ix1 d := funext fun a => Fin.ext (by match a with | ⟨0, _⟩ => rfl)
  rw [e]
  rfl

/-- The scaled `x`: entry `(b, n, d)` is `x (b, n, d) * scale d`. -/
theorem scaled_x_apply (b : Fin 4) (n : Fin 4096) (d : Fin 64) :
    val_main_v5 (F := Ideal) x0 x3 (ix3 b n d) = Cert.Spec.row x0 b n d * Cert.Spec.scale x3 d := by
  rw [val_main_v5_apply, scale_x_apply]
  rfl

theorem scaled_y_apply (b : Fin 4) (n : Fin 4096) (d : Fin 64) :
    val_main_v8 (F := Ideal) x1 x3 (ix3 b n d) = Cert.Spec.row x1 b n d * Cert.Spec.scale x3 d := by
  rw [val_main_v8_apply, scale_y_apply]
  rfl

/-! ## The projections -/

/-- The projection of row `(b, n)` of `x` onto the column of `mu`. -/
theorem proj_x_apply (b : Fin 4) (n : Fin 4096) (u : Fin 1) :
    val_main_v9 (F := Ideal) x0 x2 (ix3 b n u) = Cert.Spec.dotRow (Cert.Spec.row x0 b n) (Cert.Spec.dir x2) := by
  rw [val_main_v9_apply]
  refine Finset.sum_congr rfl fun k _ => ?_
  have el : lidx_main_v9 (ix3 b n u) k = ix3 b n k :=
    funext fun a => Fin.ext (by match a with | ⟨0, _⟩ => rfl | ⟨1, _⟩ => rfl | ⟨2, _⟩ => rfl)
  have er : ridx_main_v9 (ix3 b n u) k = ix2 k (0 : Fin 1) :=
    funext fun a => Fin.ext (by
      match a with
      | ⟨0, _⟩ => rfl
      | ⟨1, _⟩ => show u.val = 0; omega)
  rw [el, er]
  rfl

theorem proj_y_apply (b : Fin 4) (n : Fin 4096) (u : Fin 1) :
    val_main_v10 (F := Ideal) x1 x2 (ix3 b n u) = Cert.Spec.dotRow (Cert.Spec.row x1 b n) (Cert.Spec.dir x2) := by
  rw [val_main_v10_apply]
  refine Finset.sum_congr rfl fun k _ => ?_
  have el : lidx_main_v10 (ix3 b n u) k = ix3 b n k :=
    funext fun a => Fin.ext (by match a with | ⟨0, _⟩ => rfl | ⟨1, _⟩ => rfl | ⟨2, _⟩ => rfl)
  have er : ridx_main_v10 (ix3 b n u) k = ix2 k (0 : Fin 1) :=
    funext fun a => Fin.ext (by
      match a with
      | ⟨0, _⟩ => rfl
      | ⟨1, _⟩ => show u.val = 0; omega)
  rw [el, er]
  rfl

/-! ## The squared norms and the cross term -/

/-- The squared norm of the scaled row `(b, n)` of `x`. -/
theorem sqn_x_apply (b : Fin 4) (n : Fin 4096) :
    val_main_v16 (F := Ideal) x0 x3 (ix2 b n)
      = ∑ d : Fin 64, Cert.Spec.row x0 b n d * Cert.Spec.scale x3 d * (Cert.Spec.row x0 b n d * Cert.Spec.scale x3 d) := by
  rw [val_main_v16_apply, val_main_cst_0_apply]
  show Ideal.ofBits .f32 0x00000000#32 + _ = _
  rw [Ideal.ofBits_zero_f32, zero_add]
  refine Finset.sum_congr rfl fun k _ => ?_
  have e : idx_main_v16 (ix2 b n) k = ix3 b n k :=
    funext fun a => Fin.ext (by match a with | ⟨0, _⟩ => rfl | ⟨1, _⟩ => rfl | ⟨2, _⟩ => rfl)
  rw [e, val_main_v15_apply, scaled_x_apply]
  rfl

theorem sqn_y_apply (b : Fin 4) (n : Fin 4096) :
    val_main_v19 (F := Ideal) x1 x3 (ix2 b n)
      = ∑ d : Fin 64, Cert.Spec.row x1 b n d * Cert.Spec.scale x3 d * (Cert.Spec.row x1 b n d * Cert.Spec.scale x3 d) := by
  rw [val_main_v19_apply, val_main_cst_1_apply]
  show Ideal.ofBits .f32 0x00000000#32 + _ = _
  rw [Ideal.ofBits_zero_f32, zero_add]
  refine Finset.sum_congr rfl fun k _ => ?_
  have e : idx_main_v19 (ix2 b n) k = ix3 b n k :=
    funext fun a => Fin.ext (by match a with | ⟨0, _⟩ => rfl | ⟨1, _⟩ => rfl | ⟨2, _⟩ => rfl)
  rw [e, val_main_v18_apply, scaled_y_apply]
  rfl

/-- The inner product of the scaled row `(b, n)` of `x` with the scaled row `(b, m)` of `y`. -/
theorem cross_apply (b : Fin 4) (n m : Fin 4096) :
    val_main_v21 (F := Ideal) x0 x1 x3 (ix3 b n m)
      = ∑ d : Fin 64, Cert.Spec.row x0 b n d * Cert.Spec.scale x3 d * (Cert.Spec.row x1 b m d * Cert.Spec.scale x3 d) := by
  rw [val_main_v21_apply]
  refine Finset.sum_congr rfl fun k _ => ?_
  have el : lidx_main_v21 (ix3 b n m) k = ix3 b n k :=
    funext fun a => Fin.ext (by match a with | ⟨0, _⟩ => rfl | ⟨1, _⟩ => rfl | ⟨2, _⟩ => rfl)
  have er : ridx_main_v21 (ix3 b n m) k = ix3 b m k :=
    funext fun a => Fin.ext (by match a with | ⟨0, _⟩ => rfl | ⟨1, _⟩ => rfl | ⟨2, _⟩ => rfl)
  rw [el, er, scaled_x_apply, scaled_y_apply]

/-! ## The two factors and the result -/

/-- The cosine factor at `(b, n, m)`: the cosine of the difference of the two projections. -/
theorem cosFactor_apply (b : Fin 4) (n m : Fin 4096) :
    val_main_v31 (F := Ideal) x0 x1 x2 (ix3 b n m)
      = Ideal.cos (Cert.Spec.dotRow (Cert.Spec.row x0 b n) (Cert.Spec.dir x2) - Cert.Spec.dotRow (Cert.Spec.row x1 b m) (Cert.Spec.dir x2)) := by
  rw [val_main_v31_apply, val_main_v14_apply, val_main_v12_apply, val_main_v13_apply, val_main_v11_apply]
  have e12 : idx_main_v12 (ix3 b n m) = ix3 b n (0 : Fin 1) :=
    funext fun a => Fin.ext (by match a with | ⟨0, _⟩ => rfl | ⟨1, _⟩ => rfl | ⟨2, _⟩ => rfl)
  have e13 : idx_main_v11 (idx_main_v13 (ix3 b n m)) = ix3 b m (0 : Fin 1) :=
    funext fun a => Fin.ext (by match a with | ⟨0, _⟩ => rfl | ⟨1, _⟩ => rfl | ⟨2, _⟩ => rfl)
  rw [e12, e13, proj_x_apply, proj_y_apply]
  rfl

/-- The Gaussian factor at `(b, n, m)`. -/
theorem gaussFactor_apply (b : Fin 4) (n m : Fin 4096) :
    val_main_v34 (F := Ideal) x0 x1 x3 (ix3 b n m)
      = Cert.Spec.damp (Cert.Spec.row x0 b n) (Cert.Spec.row x1 b m) (Cert.Spec.scale x3) := by
  rw [val_main_v34_apply, val_main_v33_apply, val_main_v32_apply, val_main_cst_4_apply, val_main_v30_apply, val_main_v29_apply,
    val_main_cst_3_apply, val_main_v28_apply, val_main_v25_apply, val_main_v27_apply, val_main_v26_apply, val_main_cst_2_apply,
    val_main_v23_apply, val_main_v17_apply, val_main_v24_apply, val_main_v22_apply, val_main_v20_apply]
  have e23 : idx_main_v17 (idx_main_v23 (ix3 b n m)) = ix2 b n :=
    funext fun a => Fin.ext (by match a with | ⟨0, _⟩ => rfl | ⟨1, _⟩ => rfl)
  have e24 : idx_main_v20 (idx_main_v22 (idx_main_v24 (ix3 b n m))) = ix2 b m :=
    funext fun a => Fin.ext (by match a with | ⟨0, _⟩ => rfl | ⟨1, _⟩ => rfl)
  rw [e23, e24, sqn_x_apply, sqn_y_apply, cross_apply]
  rfl

/-- THE REFERENCE'S RESULT is the specification's array with the cosine of the difference. -/
theorem result_eq : val_main_v35 (F := Ideal) x0 x1 x2 x3 = Cert.Spec.diffVal x0 x1 x2 x3 := by
  funext i
  obtain ⟨b, n, m, rfl⟩ : ∃ (b : Fin 4) (n m : Fin 4096), i = ix3 b n m := ⟨i 0, i 1, i 2, eq_ix3 i⟩
  rw [val_main_v35_apply, cosFactor_apply, gaussFactor_apply]
  rfl

end Cert.ReferenceIdeal.RefValue

end
-- ==== Proof.Finite.lean ====
/-
  From the precondition to real entries.

  The precondition is the conjunction, over the four argument arrays, of "every entry has absolute value below plus
  infinity".  Read at exact values, an entry `x` with `max x (-x) < +∞` is neither `+∞` nor `-∞`, so it is a real
  number.  The conjunction of the four tests being 1 gives each test being 1; a test is a reduction by `and` over all
  axes of the entrywise comparison, which is 1 only if every entry compares 1.  Only the first three arrays (`x`, `y`,
  `mu`) are needed for the angle-subtraction formula.
-/
import proofs.«145296_j85959475462553_2_alg».proof.Pre_finite_inputs
import proofs.«145296_j85959475462553_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The plus-infinity word of the 32-bit format is `+∞`. -/
theorem ofBits_inf : Ideal.ofBits .f32 0x7F800000#32 = (⊤ : EReal) := by simp [Ideal.ofBits, Ideal.ieee]

/-- An extended real whose absolute value compares below `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, ofBits_inf] at h
  have hlt : max x (-x) < (⊤ : EReal) := by
    by_contra hn
    simp only [Ideal.cmp, hn, decide_false] at h
    exact absurd h (by decide)
  induction x using EReal.rec with
  | bot => simp at hlt
  | coe r => exact ⟨r, rfl⟩
  | top => simp at hlt

instance : Subsingleton S_.Idx := ⟨fun a b => funext fun d => d.elim0⟩

variable [Facts]

/-- Under the precondition at exact values, every entry of `x`, of `y` and of `mu` is a real number. -/
theorem reals_of_pre (a0 a1 : FVec Ideal S4x4096x64 .f32) (a2 : FVec Ideal S64x1 .f32) (a3 : FVec Ideal S64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn, fn_part1] at h0
  obtain ⟨h012, -⟩ := IntOp.andi_eq_one.1 h0
  obtain ⟨h01, h2⟩ := IntOp.andi_eq_one.1 h012
  obtain ⟨hx, hy⟩ := IntOp.andi_eq_one.1 h01
  refine ⟨fun i => ?_, fun i => ?_, fun i => ?_⟩
  · exact real_of_abs_lt _ (Host.reduce_andi_all _ _ _ _ _ hx i)
  · exact real_of_abs_lt _ (Host.reduce_andi_all _ _ _ _ _ hy i)
  · exact real_of_abs_lt _ (Host.reduce_andi_all _ _ _ _ _ h2 i)

end Cert.Finite

end
-- ==== Proof.lean ====
/-
  A cosine-times-Gaussian kernel matrix, two ways.

  For `x`, `y` of shape `[4, 4096, 64]`, a direction `mu` of shape `[64, 1]` and log-variances `l` of shape `[64]`, entry
  `(b, n, m)` of the `[4, 4096, 4096]` result is

      cos (x_bn · mu  -  y_bm · mu)  *  exp (-(1/2) * max (|x_bn ∘ s|² + |y_bm ∘ s|² - 2 (x_bn ∘ s) · (y_bm ∘ s)) 0),     s = exp ((1/2) l).

  The reference computes exactly this on whole arrays.  The kernel tiles the result in 1024 × 1024 blocks over a
  4 × 4 × 4 grid and, inside a block, replaces the cosine of the difference by `cos a * cos b + sin a * sin b` of the two
  projections, so that the trigonometric functions are applied to columns rather than to the whole tile; it also
  rounds the scaled rows to a narrower float format before the matrix product, which on exact values is the identity
  (the two entries of the idealization's ledger).

  On the extended reals the two results agree when the projections are real numbers: that is the angle-subtraction
  formula, and it is where the precondition (finite inputs) is used — for `x`, `y` and `mu`; the Gaussian factor is the same
  term on both sides and needs no law.  The parts: the specification and the formula (Spec), the kernel body's stored
  entry from its loaded rows (Body), the blocks assembled into the whole array and the kernel's run (Whole), the
  reference's result read entry by entry (Ref), real entries from the precondition (Finite).
-/
import proofs.«145296_j85959475462553_2_alg».proof.Defs
import proofs.«145296_j85959475462553_2_alg».proof.Proof.Gen.Kernel
import proofs.«145296_j85959475462553_2_alg».proof.Proof.Gen.Kernel.Skeleton
import proofs.«145296_j85959475462553_2_alg».proof.Proof.Gen.Kernel.Launch
import proofs.«145296_j85959475462553_2_alg».proof.Proof.Gen.Kernel.Points
import proofs.«145296_j85959475462553_2_alg».proof.Proof.Gen.Kernel.Frame
import proofs.«145296_j85959475462553_2_alg».proof.Proof.Gen.KernelIdeal
import proofs.«145296_j85959475462553_2_alg».proof.Proof.Gen.KernelIdeal.Skeleton
import proofs.«145296_j85959475462553_2_alg».proof.Proof.Gen.KernelIdeal.Launch
import proofs.«145296_j85959475462553_2_alg».proof.Proof.Gen.KernelIdeal.Points
import proofs.«145296_j85959475462553_2_alg».proof.Proof.Gen.KernelIdeal.Frame
import proofs.«145296_j85959475462553_2_alg».proof.Proof.Gen.ReferenceIdeal
import proofs.«145296_j85959475462553_2_alg».proof.Proof.Gen.KernelIdeal.Value
import proofs.«145296_j85959475462553_2_alg».proof.Proof.Gen.ReferenceIdeal.Run
import proofs.«145296_j85959475462553_2_alg».proof.Proof.Gen.ReferenceIdeal.Read
import proofs.«145296_j85959475462553_2_alg».proof.Proof.Gen.Pre_finite_inputs
import proofs.«145296_j85959475462553_2_alg».proof.Proof.Spec
import proofs.«145296_j85959475462553_2_alg».proof.Proof.Body
import proofs.«145296_j85959475462553_2_alg».proof.Proof.Whole
import proofs.«145296_j85959475462553_2_alg».proof.Proof.Ref
import proofs.«145296_j85959475462553_2_alg».proof.Proof.Finite
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference is a straight line of whole-array operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ledger's two entries: narrowing the scaled rows of `x`, and of `y`, to the 16-bit format and widening them back is
    the identity on exact values, and the format's rounding on words. -/
theorem preserves : Cert.preserves_Kernel_KernelIdeal :=
  ⟨IdealRules.truncf_extf.statement Cert.KernelIdeal.S1024x64 .f32 .bf16,
   IdealRules.truncf_extf.statement Cert.KernelIdeal.S1024x64 .f32 .bf16⟩

/-- On exact values the kernel's result array is the specification's array with the expanded cosine factor (Whole), the
    reference's is the one with the cosine of the difference (Ref), and under the precondition the entries of `x`, `y` and
    `mu` are real numbers (Finite), so the two arrays are one (Spec). -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq, (hagree c).1, (hagree c).2.1,
    (hagree c).2.2.1, (hagree c).2.2.2]
  obtain ⟨hx, hy, hmu⟩ := Cert.Finite.reals_of_pre _ _ _ _ (hpre c)
  exact (Cert.Spec.prodVal_eq_diffVal _ _ _ _ hx hy hmu).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
